-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384 : Shape := ⟨1, ![16384]⟩
abbrev S16x4096 : Shape := ⟨2, ![16, 4096]⟩
abbrev S16384x16 : Shape := ⟨2, ![16384, 16]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S16x4096 : S_.BroadcastsInDim S16x4096 (![] : Fin 0 → Fin S16x4096.rank)
  reducesTo_S16x4096_S_d0_1 : S16x4096.ReducesTo [0, 1] S_
  bcast_S_S16384x16 : S_.BroadcastsInDim S16384x16 (![] : Fin 0 → Fin S16384x16.rank)
  reducesTo_S16384x16_S_d0_1 : S16384x16.ReducesTo [0, 1] S_

variable [Facts]

def fn_part1 {F : FTy → Type} [FloatOps F] (main_arg4 : FVec F S16384x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S16384x16 .f32 := Host.absf main_arg4
  let main_cst_6 : FVec F S_ .f32 := constant S_ .f32 0x7F800000#32
  let main_v20 : FVec F S16384x16 .f32 := broadcastInDim S16384x16 ![] bcast_S_S16384x16 main_cst_6
  let main_v21 : IVec S16384x16 1 := cmpf .olt main_v19 main_v20
  let main_c_7 : IVec S_ 1 := constantI S_ 1 1#1
  let main_v22 : IVec S_ 1 := (fun x v => Host.reduce IntOp.andi x v reducesTo_S16384x16_S_d0_1 h_S_) main_v21 main_c_7
  let main_v23 : IVec S_ 1 := andi main_v18 main_v22
  main_v23

def fn {F : FTy → Type} [FloatOps F] (main_arg0 : FVec F S2x2048x4096 .f32) (main_arg1 : FVec F S16384x4096 .f32) (main_arg2 : FVec F S16384 .f32) (main_arg3 : FVec F S16x4096 .f32) (main_arg4 : FVec F S16384x16 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S2x2048x4096 : Shape := ⟨3, ![2, 2048, 4096]⟩
abbrev S16384x4096 : Shape := ⟨2, ![16384, 4096]⟩
abbrev S16384 : Shape := ⟨1, ![16384]⟩
abbrev S16x4096 : Shape := ⟨2, ![16, 4096]⟩
abbrev S16384x16 : Shape := ⟨2, ![16384, 16]⟩
abbrev S4096x4096 : Shape := ⟨2, ![4096, 4096]⟩
abbrev S4096x16 : Shape := ⟨2, ![4096, 16]⟩
abbrev S256x4096 : Shape := ⟨2, ![256, 4096]⟩
abbrev S256x16 : Shape := ⟨2, ![256, 16]⟩
abbrev S4096x16384 : Shape := ⟨2, ![4096, 16384]⟩
abbrev S1024x4096 : Shape := ⟨2, ![1024, 4096]⟩
abbrev S1024x16 : Shape := ⟨2, ![1024, 16]⟩
abbrev S256x1024 : Shape := ⟨2, ![256, 1024]⟩
abbrev S2x2048x16384 : Shape := ⟨3, ![2, 2048, 16384]⟩

abbrev nBuf : Space → Nat
  | .hbm => 13
  | .vmem => 15
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384, .f32⟩
  | .hbm, ⟨3, _⟩ => ⟨S16x4096, .f32⟩
  | .hbm, ⟨4, _⟩ => ⟨S16384x16, .f32⟩
  | .hbm, ⟨5, _⟩ => ⟨S4096x4096, .f32⟩
  | .hbm, ⟨6, _⟩ => ⟨S4096x4096, .bf16⟩
  | .hbm, ⟨7, _⟩ => ⟨S16384x4096, .bf16⟩
  | .hbm, ⟨8, _⟩ => ⟨S16x4096, .bf16⟩
  | .hbm, ⟨9, _⟩ => ⟨S16384x16, .bf16⟩
  | .hbm, ⟨10, _⟩ => ⟨S4096x16, .f32⟩
  | .hbm, ⟨11, _⟩ => ⟨S4096x16384, .f32⟩
  | .hbm, ⟨12, _⟩ => ⟨S2x2048x16384, .f32⟩
  | .local _ .vmem, ⟨0, _⟩ => ⟨S256x4096, .bf16⟩
  | .local _ .vmem, ⟨1, _⟩ => ⟨S256x4096, .bf16⟩
  | .local _ .vmem, ⟨2, _⟩ => ⟨S16x4096, .bf16⟩
  | .local _ .vmem, ⟨3, _⟩ => ⟨S256x16, .f32⟩
  | .local _ .vmem, ⟨4, _⟩ => ⟨S256x16, .f32⟩
  | .local _ .vmem, ⟨5, _⟩ => ⟨S256x4096, .bf16⟩
  | .local _ .vmem, ⟨6, _⟩ => ⟨S256x4096, .bf16⟩
  | .local _ .vmem, ⟨7, _⟩ => ⟨S1024x4096, .bf16⟩
  | .local _ .vmem, ⟨8, _⟩ => ⟨S1024x4096, .bf16⟩
  | .local _ .vmem, ⟨9, _⟩ => ⟨S256x16, .f32⟩
  | .local _ .vmem, ⟨10, _⟩ => ⟨S256x16, .f32⟩
  | .local _ .vmem, ⟨11, _⟩ => ⟨S1024x16, .bf16⟩
  | .local _ .vmem, ⟨12, _⟩ => ⟨S1024x16, .bf16⟩
  | .local _ .vmem, ⟨13, _⟩ => ⟨S256x1024, .f32⟩
  | .local _ .vmem, ⟨14, _⟩ => ⟨S256x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x16 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x2048x4096_S4096x4096 : S2x2048x4096.ShapeCasts S4096x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S256x16_S256x16_0_0 : ∀ a, (![0, 0] : Fin 2 → Nat) a + S256x16.size a ≤ S256x16.size a
  h_S256x16 : 0 < S256x16.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S256x16_S256x16 : S256x16.ShapeCasts S256x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S256x1024_S256x1024_0_0 : ∀ a, (![0, 0] : Fin 2 → Nat) a + S256x1024.size a ≤ S256x1024.size a
  h_S256x1024 : 0 < S256x1024.numel
  shapeCasts_S4096x16384_S2x2048x16384 : S4096x16384.ShapeCasts S2x2048x16384
  dot_S256x4096_S16x4096_S256x16_1_1_0_0_n_n_wf : DotDims.WF S256x4096 S16x4096 S256x16 [1] [1] [0] [0] [] []
  dot_S256x4096_S1024x4096_S256x1024_1_1_0_0_n_n_wf : DotDims.WF S256x4096 S1024x4096 S256x1024 [1] [1] [0] [0] [] []
  dot_S256x16_S1024x16_S256x1024_1_1_0_0_n_n_wf : DotDims.WF S256x16 S1024x16 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .bf16 = 32 ∨ (Rect.block (s := S16x4096) S16x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S4096x16.size a
  hwx0_2 : ∀ i : grid0.Coords, EltTy.bits .f32 = 32 ∨ (Rect.block (s := S4096x16) S256x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .bf16 = 32 ∨ (Rect.block (s := S4096x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S16384x4096.size a
  hwx1_1 : ∀ i : grid1.Coords, EltTy.bits .bf16 = 32 ∨ (Rect.block (s := S16384x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x16.size a ≤ S4096x16.size a
  hwx1_2 : ∀ i : grid1.Coords, EltTy.bits .f32 = 32 ∨ (Rect.block (s := S4096x16) S256x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S16384x16.size a
  hwx1_3 : ∀ i : grid1.Coords, EltTy.bits .bf16 = 32 ∨ (Rect.block (s := S16384x16) S1024x16.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S4096x16384.size a
  hwx1_4 : ∀ i : grid1.Coords, EltTy.bits .f32 = 32 ∨ (Rect.block (s := S4096x16384) S256x1024.size (cc1_transform_4 i) (hinb1_4 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x16_S1024x16_S256x1024_1_1_0_0_n_n : DotDims S256x16 S1024x16 S256x1024 where
  lhsContracting := [1]
  rhsContracting := [1]
  lhsNonContracting := [0]
  rhsNonContracting := [0]
  lhsBatch := []
  rhsBatch := []
  wf := dot_S256x16_S1024x16_S256x1024_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384 : Shape := ⟨1, ![16384]⟩
abbrev S16x4096 : Shape := ⟨2, ![16, 4096]⟩
abbrev S16384x16 : Shape := ⟨2, ![16384, 16]⟩
abbrev S2x2048x16384 : Shape := ⟨3, ![2, 2048, 16384]⟩
abbrev S2x2048x16 : Shape := ⟨3, ![2, 2048, 16]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384, .f32⟩
  | .hbm, ⟨3, _⟩ => ⟨S16x4096, .f32⟩
  | .hbm, ⟨4, _⟩ => ⟨S16384x16, .f32⟩
  | .hbm, ⟨5, _⟩ => ⟨S2x2048x16384, .f32⟩
  | .hbm, ⟨6, _⟩ => ⟨S2x2048x16, .f32⟩
  | .hbm, ⟨7, _⟩ => ⟨S2x2048x16384, .f32⟩
  | .hbm, ⟨8, _⟩ => ⟨S_, .f32⟩
  | .hbm, ⟨9, _⟩ => ⟨S2x2048x16384, .f32⟩
  | .hbm, ⟨10, _⟩ => ⟨S2x2048x16384, .f32⟩
  | .hbm, ⟨11, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S2x2048x16384 : S_.BroadcastsInDim S2x2048x16384 (![] : Fin 0 → Fin S2x2048x16384.rank)
  dot_S2x2048x4096_S16384x4096_S2x2048x16384_2_1_01_0_n_n_wf : DotDims.WF S2x2048x4096 S16384x4096 S2x2048x16384 [2] [1] [0, 1] [0] [] []
  dot_S2x2048x4096_S16x4096_S2x2048x16_2_1_01_0_n_n_wf : DotDims.WF S2x2048x4096 S16x4096 S2x2048x16 [2] [1] [0, 1] [0] [] []
  dot_S2x2048x16_S16384x16_S2x2048x16384_2_1_01_0_n_n_wf : DotDims.WF S2x2048x16 S16384x16 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf
def dot_S2x2048x4096_S16x4096_S2x2048x16_2_1_01_0_n_n : DotDims S2x2048x4096 S16x4096 S2x2048x16 where
  lhsContracting := [2]
  rhsContracting := [1]
  lhsNonContracting := [0, 1]
  rhsNonContracting := [0]
  lhsBatch := []
  rhsBatch := []
  wf := dot_S2x2048x4096_S16x4096_S2x2048x16_2_1_01_0_n_n_wf
def dot_S2x2048x16_S16384x16_S2x2048x16384_2_1_01_0_n_n : DotDims S2x2048x16 S16384x16 S2x2048x16384 where
  lhsContracting := [2]
  rhsContracting := [1]
  lhsNonContracting := [0, 1]
  rhsNonContracting := [0]
  lhsBatch := []
  rhsBatch := []
  wf := dot_S2x2048x16_S16384x16_S2x2048x16384_2_1_01_0_n_n_wf

class Facts : Prop extends Facts₀ where

variable [Facts]
-- ==== Proof.Spec.lean ====
import Idealize.ShloMosaic.PureOps.Ideal
import Idealize.ShloMosaic.Lib.ValueIdx

/-!
# A linear layer with a low-rank correction, as functions of its arrays

For tokens `x` of shape [2, 2048, 4096], a weight `W` [16384, 4096] and low-rank factors `A` [16, 4096],
`B` [16384, 16], every array an array of extended reals, the layer's output at token `(b, s)` and feature `o` is

  Σ_d x(b,s,d)·W(o,d)  +  (Σ_k (Σ_d x(b,s,d)·A(k,d)) · B(o,k)) · scale,

`scale` the number the f32 word of 2 denotes. The same value is reached through the tokens laid out as the
4096 rows of a matrix `X` (row `b·2048 + s` is token `(b, s)`): first `M = X·Aᵀ` ([4096, 16]), then
`X·Wᵀ + (M·Bᵀ)·scale` ([4096, 16384]). No law of arithmetic is used: both forms are the same sums of the same
products, read at matching positions.
-/

noncomputable section

open scoped BigOperators

namespace Cert.LowRank

open Idealize.ShloMosaic Idealize.ShloMosaic.ValueIdx

/-- The correction's scale: what the f32 word of 2 denotes. -/
abbrev scale : EReal := Ideal.ofBits .f32 0x40000000#32

/-- Row `r` of `X` against row `k` of `A`: an entry of `X·Aᵀ`. -/
def midAt (X : (⟨2, ![4096, 4096]⟩ : Shape).Idx → EReal) (A : (⟨2, ![16, 4096]⟩ : Shape).Idx → EReal)
    (r : Fin 4096) (k : Fin 16) : EReal :=
  ∑ d : Fin 4096, X (ix2 r d) * A (ix2 k d)

/-- `X·Aᵀ` as an array [4096, 16]. -/
def mid (X : (⟨2, ![4096, 4096]⟩ : Shape).Idx → EReal) (A : (⟨2, ![16, 4096]⟩ : Shape).Idx → EReal) :
    (⟨2, ![4096, 16]⟩ : Shape).Idx → EReal :=
  fun j => midAt X A ⟨(j 0).val, idx2_lt0 j⟩ ⟨(j 1).val, idx2_lt1 j⟩

theorem mid_ix2 (X : (⟨2, ![4096, 4096]⟩ : Shape).Idx → EReal) (A : (⟨2, ![16, 4096]⟩ : Shape).Idx → EReal)
    (r : Fin 4096) (k : Fin 16) : mid X A (ix2 r k) = midAt X A r k := rfl

/-- An entry of `X·Wᵀ + (M·Bᵀ)·scale`, for any [4096, 16] array `M`. -/
def outAt (X : (⟨2, ![4096, 4096]⟩ : Shape).Idx → EReal) (W : (⟨2, ![16384, 4096]⟩ : Shape).Idx → EReal)
    (M : (⟨2, ![4096, 16]⟩ : Shape).Idx → EReal) (B : (⟨2, ![16384, 16]⟩ : Shape).Idx → EReal)
    (r : Fin 4096) (o : Fin 16384) : EReal :=
  (∑ d : Fin 4096, X (ix2 r d) * W (ix2 o d)) + (∑ k : Fin 16, M (ix2 r k) * B (ix2 o k)) * scale

/-- `X·Wᵀ + (M·Bᵀ)·scale` as an array [4096, 16384]. -/
def out (X : (⟨2, ![4096, 4096]⟩ : Shape).Idx → EReal) (W : (⟨2, ![16384, 4096]⟩ : Shape).Idx → EReal)
    (M : (⟨2, ![4096, 16]⟩ : Shape).Idx → EReal) (B : (⟨2, ![16384, 16]⟩ : Shape).Idx → EReal) :
    (⟨2, ![4096, 16384]⟩ : Shape).Idx → EReal :=
  fun j => outAt X W M B ⟨(j 0).val, idx2_lt0 j⟩ ⟨(j 1).val, idx2_lt1 j⟩

theorem out_ix2 (X : (⟨2, ![4096, 4096]⟩ : Shape).Idx → EReal) (W : (⟨2, ![16384, 4096]⟩ : Shape).Idx → EReal)
    (M : (⟨2, ![4096, 16]⟩ : Shape).Idx → EReal) (B : (⟨2, ![16384, 16]⟩ : Shape).Idx → EReal)
    (r : Fin 4096) (o : Fin 16384) : out X W M B (ix2 r o) = outAt X W M B r o := rfl

/-- The layer's output at token `(b, s)` and feature `o`, from the tokens as a [2, 2048, 4096] array. -/
def layerAt (x : (⟨3, ![2, 2048, 4096]⟩ : Shape).Idx → EReal) (W : (⟨2, ![16384, 4096]⟩ : Shape).Idx → EReal)
    (A : (⟨2, ![16, 4096]⟩ : Shape).Idx → EReal) (B : (⟨2, ![16384, 16]⟩ : Shape).Idx → EReal)
    (b : Fin 2) (s : Fin 2048) (o : Fin 16384) : EReal :=
  (∑ d : Fin 4096, x (ix3 b s d) * W (ix2 o d))
    + (∑ k : Fin 16, (∑ d : Fin 4096, x (ix3 b s d) * A (ix2 k d)) * B (ix2 o k)) * scale

/-- The layer's output as an array [2, 2048, 16384]. -/
def layer (x : (⟨3, ![2, 2048, 4096]⟩ : Shape).Idx → EReal) (W : (⟨2, ![16384, 4096]⟩ : Shape).Idx → EReal)
    (A : (⟨2, ![16, 4096]⟩ : Shape).Idx → EReal) (B : (⟨2, ![16384, 16]⟩ : Shape).Idx → EReal) :
    (⟨3, ![2, 2048, 16384]⟩ : Shape).Idx → EReal :=
  fun i => layerAt x W A B ⟨(i 0).val, (i 0).isLt⟩ ⟨(i 1).val, (i 1).isLt⟩ ⟨(i 2).val, (i 2).isLt⟩

theorem layer_ix3 (x : (⟨3, ![2, 2048, 4096]⟩ : Shape).Idx → EReal) (W : (⟨2, ![16384, 4096]⟩ : Shape).Idx → EReal)
    (A : (⟨2, ![16, 4096]⟩ : Shape).Idx → EReal) (B : (⟨2, ![16384, 16]⟩ : Shape).Idx → EReal)
    (b : Fin 2) (s : Fin 2048) (o : Fin 16384) : layer x W A B (ix3 b s o) = layerAt x W A B b s o := rfl

/-- The matrix row that holds token `(b, s)`. -/
def rowOf (b : Fin 2) (s : Fin 2048) : Fin 4096 := ⟨b.val * 2048 + s.val, by omega⟩

/-- When row `b·2048 + s` of `X` is token `(b, s)` of `x`, the two-step matrix form at that row is the
    layer's output at that token: the sums range over the same products. -/
theorem outAt_rowOf (x : (⟨3, ![2, 2048, 4096]⟩ : Shape).Idx → EReal) (X : (⟨2, ![4096, 4096]⟩ : Shape).Idx → EReal)
    (W : (⟨2, ![16384, 4096]⟩ : Shape).Idx → EReal) (A : (⟨2, ![16, 4096]⟩ : Shape).Idx → EReal)
    (B : (⟨2, ![16384, 16]⟩ : Shape).Idx → EReal)
    (hX : ∀ (b : Fin 2) (s : Fin 2048) (d : Fin 4096), X (ix2 (rowOf b s) d) = x (ix3 b s d))
    (b : Fin 2) (s : Fin 2048) (o : Fin 16384) :
    outAt X W (mid X A) B (rowOf b s) o = layerAt x W A B b s o := by
  unfold outAt layerAt
  simp only [mid_ix2, midAt, hX]

end Cert.LowRank

end
-- ==== Proof.RefIsLayer.lean ====
import proofs.«129847_j82660940578996_2_alg».proof.Proof.Gen.ReferenceIdeal.Read
import proofs.«129847_j82660940578996_2_alg».proof.Proof.Spec
import Idealize.ShloMosaic.Lib.ValueIdx

/-!
# The reference computes the layer

The reference contracts the tokens [2, 2048, 4096] with the weight over the last axis of both, contracts them with
the first factor the same way into [2, 2048, 16], contracts that with the second factor into [2, 2048, 16384],
multiplies by the constant 2 and adds the two. Read at `(b, s, o)` on the extended reals that is the layer's
formula with the sums in the same order, so nothing but the naming of indices stands between the two.
-/

noncomputable section

open scoped BigOperators

namespace Cert.ReferenceIdeal.RefValue

open Cert.ReferenceIdeal Cert.ReferenceIdeal.Read Idealize.ShloMosaic Idealize.ShloMosaic.ValueIdx

/-! ## Which entries each contraction reads at `(b, s, ·)` -/

theorem baseLeft (b : Fin 2) (s : Fin 2048) (o : Fin 16384) (k : Fin 4096) :
    lidx_main_v0 (ix3 b s o) k = ix3 b s k :=
  funext fun a => Fin.ext (by match a with | ⟨0, _⟩ => rfl | ⟨1, _⟩ => rfl | ⟨2, _⟩ => rfl)
theorem baseRight (b : Fin 2) (s : Fin 2048) (o : Fin 16384) (k : Fin 4096) :
    ridx_main_v0 (ix3 b s o) k = ix2 o k :=
  funext fun a => Fin.ext (by match a with | ⟨0, _⟩ => rfl | ⟨1, _⟩ => rfl)
theorem midLeft (b : Fin 2) (s : Fin 2048) (r : Fin 16) (k : Fin 4096) :
    lidx_main_v1 (ix3 b s r) k = ix3 b s k :=
  funext fun a => Fin.ext (by match a with | ⟨0, _⟩ => rfl | ⟨1, _⟩ => rfl | ⟨2, _⟩ => rfl)
theorem midRight (b : Fin 2) (s : Fin 2048) (r : Fin 16) (k : Fin 4096) :
    ridx_main_v1 (ix3 b s r) k = ix2 r k :=
  funext fun a => Fin.ext (by match a with | ⟨0, _⟩ => rfl | ⟨1, _⟩ => rfl)
theorem corrLeft (b : Fin 2) (s : Fin 2048) (o : Fin 16384) (k : Fin 16) :
    lidx_main_v2 (ix3 b s o) k = ix3 b s k :=
  funext fun a => Fin.ext (by match a with | ⟨0, _⟩ => rfl | ⟨1, _⟩ => rfl | ⟨2, _⟩ => rfl)
theorem corrRight (b : Fin 2) (s : Fin 2048) (o : Fin 16384) (k : Fin 16) :
    ridx_main_v2 (ix3 b s o) k = ix2 o k :=
  funext fun a => Fin.ext (by match a with | ⟨0, _⟩ => rfl | ⟨1, _⟩ => rfl)

/-- The reference's result array, on the extended reals, is the layer of its four float arguments. -/
theorem result_eq (x0 : (⟨S2x2048x4096, .f32⟩ : BufTy).Contents (Elt Ideal)) (x1 : (⟨S16384x4096, .f32⟩ : BufTy).Contents (Elt Ideal))
    (x3 : (⟨S16x4096, .f32⟩ : BufTy).Contents (Elt Ideal)) (x4 : (⟨S16384x16, .f32⟩ : BufTy).Contents (Elt Ideal)) :
    val_main_v5 (F := Ideal) x0 x1 x3 x4 = Cert.LowRank.layer x0 x1 x3 x4 := by
  funext i
  obtain ⟨b, s, o, rfl⟩ : ∃ (b : Fin 2) (s : Fin 2048) (o : Fin 16384), i = ix3 b s o := ⟨i 0, i 1, i 2, eq_ix3 i⟩
  rw [val_main_v5_apply, val_main_v0_apply, val_main_v4_apply, val_main_v2_apply, val_main_v3_apply, val_main_cst_apply,
    Cert.LowRank.layer_ix3]
  unfold Cert.LowRank.layerAt
  simp only [baseLeft, baseRight, corrLeft, corrRight, val_main_v1_apply, midLeft, midRight,
    Ideal.addf_def, Ideal.mulf_def, Ideal.ofBits_def]

end Cert.ReferenceIdeal.RefValue

end
-- ==== Proof.LibTransposedProduct.lean ====
import Idealize.ShloMosaic.PureOps.Ideal
import Idealize.ShloMosaic.PureOps.Ideal.Laws
import Idealize.ShloMosaic.Lib.ValueIdx

/-!
# A matrix product whose right factor is stored transposed

`matmul_rowsT_apply`: for an `[a, k]` matrix `L` and a `[b, k]` matrix `R` (the right factor stored row by row, as a
linear layer stores its weights), the product contracted over the LAST axis of both and accumulated into zero is, at
`(r, c)`, the sum over `u < k` of `L (r, u) · R (c, u)` on the extended reals — at any extents, for any
dimension-numbers record whose operand indices have those coordinates.
-/

noncomputable section

open scoped BigOperators

namespace Cert.TransposedProduct

open Idealize.ShloMosaic Idealize.ShloMosaic.ValueIdx

/-- L · Rᵀ accumulated into zero, at `(r, c)`: row `r` of `L` against row `c` of `R`. -/
theorem matmul_rowsT_apply {a k b : ℕ} {φ₁ φ₂ : FTy}
    (D : DotDims ⟨2, ![a, k]⟩ ⟨2, ![b, k]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (L : FVec Ideal ⟨2, ![a, k]⟩ φ₁) (R : FVec Ideal ⟨2, ![b, k]⟩ φ₂) (r : Fin a) (c : Fin b) :
    FloatOps.matmul D prec L R (constant ⟨2, ![a, b]⟩ .f32 0x00000000#32) (ix2 r c)
      = ∑ u : Fin k, L (ix2 r u) * R (ix2 c u) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 c u := by
    funext ax
    match ax with
    | ⟨0, _⟩ => exact Fin.ext (hr0 _ _)
    | ⟨1, _⟩ => exact Fin.ext ((hr1 _ _).trans (contrEquiv1_symm_val D k hr hs u))
  rw [hL, hR]

end Cert.TransposedProduct

end
-- ==== Proof.Bodies.lean ====
import proofs.«129847_j82660940578996_2_alg».proof.Proof.Gen.KernelIdeal.Skeleton
import proofs.«129847_j82660940578996_2_alg».proof.Proof.LibTransposedProduct
import Idealize.ShloMosaic.Lib.Pipeline.Value
import Idealize.ShloMosaic.Lib.ValueIdx
import Idealize.ShloMosaic.PureOps.Ideal.Laws

/-!
# What each kernel body computes from the blocks it loads, entry by entry, on the extended reals

The first kernel multiplies a [256, 4096] block of token rows by the [16, 4096] factor stored row by row:
entry `(r, k)` is Σ_d x0(r,d)·x1(k,d). The second multiplies the same kind of block by a [1024, 4096] block of
weight rows, multiplies a [256, 16] block by a [1024, 16] block of the other factor, scales the second product by
the number the f32 word of 2 denotes and adds: entry `(r, c)` is
Σ_d x0(r,d)·x1(c,d) + (Σ_k x2(r,k)·x3(c,k))·scale. Narrowing a block to bf16 changes nothing on the extended reals.
-/

noncomputable section

open scoped BigOperators

namespace Cert.KernelIdeal.Bodies

open Cert.KernelIdeal Cert.KernelIdeal.Gen Idealize.ShloMosaic Idealize.ShloMosaic.ValueIdx

/-! ## Which operand coordinate each product reads: the three dimension-number records -/

theorem midDims_l0 (j : S256x16.Idx) (q : dot_S256x4096_S16x4096_S256x16_1_1_0_0_n_n.contr.Idx) :
    (dot_S256x4096_S16x4096_S256x16_1_1_0_0_n_n.lhsIdx j q 0).val = (j 0).val := by
  unfold DotDims.lhsIdx
  rw [dif_neg (show ¬(0 : Fin S256x4096.rank) ∈ dot_S256x4096_S16x4096_S256x16_1_1_0_0_n_n.lhsBatch by decide),
    dif_pos (show (0 : Fin S256x4096.rank) ∈ dot_S256x4096_S16x4096_S256x16_1_1_0_0_n_n.lhsNonContracting by decide)]
  rfl
theorem midDims_l1 (j : S256x16.Idx) (q : dot_S256x4096_S16x4096_S256x16_1_1_0_0_n_n.contr.Idx) :
    (dot_S256x4096_S16x4096_S256x16_1_1_0_0_n_n.lhsIdx j q 1).val = (q ⟨0, by decide⟩).val :=
  dot_S256x4096_S16x4096_S256x16_1_1_0_0_n_n.lhsIdx_val_of_single rfl j q
theorem midDims_r0 (j : S256x16.Idx) (q : dot_S256x4096_S16x4096_S256x16_1_1_0_0_n_n.contr.Idx) :
    (dot_S256x4096_S16x4096_S256x16_1_1_0_0_n_n.rhsIdx j q 0).val = (j 1).val := by
  unfold DotDims.rhsIdx
  rw [dif_neg (show ¬(0 : Fin S16x4096.rank) ∈ dot_S256x4096_S16x4096_S256x16_1_1_0_0_n_n.rhsBatch by decide),
    dif_pos (show (0 : Fin S16x4096.rank) ∈ dot_S256x4096_S16x4096_S256x16_1_1_0_0_n_n.rhsNonContracting by decide)]
  rfl
theorem midDims_r1 (j : S256x16.Idx) (q : dot_S256x4096_S16x4096_S256x16_1_1_0_0_n_n.contr.Idx) :
    (dot_S256x4096_S16x4096_S256x16_1_1_0_0_n_n.rhsIdx j q 1).val = (q ⟨0, by decide⟩).val :=
  dot_S256x4096_S16x4096_S256x16_1_1_0_0_n_n.rhsIdx_val_of_single rfl j q

theorem baseDims_l0 (j : S256x1024.Idx) (q : dot_S256x4096_S1024x4096_S256x1024_1_1_0_0_n_n.contr.Idx) :
    (dot_S256x4096_S1024x4096_S256x1024_1_1_0_0_n_n.lhsIdx j q 0).val = (j 0).val := by
  unfold DotDims.lhsIdx
  rw [dif_neg (show ¬(0 : Fin S256x4096.rank) ∈ dot_S256x4096_S1024x4096_S256x1024_1_1_0_0_n_n.lhsBatch by decide),
    dif_pos (show (0 : Fin S256x4096.rank) ∈ dot_S256x4096_S1024x4096_S256x1024_1_1_0_0_n_n.lhsNonContracting by decide)]
  rfl
theorem baseDims_l1 (j : S256x1024.Idx) (q : dot_S256x4096_S1024x4096_S256x1024_1_1_0_0_n_n.contr.Idx) :
    (dot_S256x4096_S1024x4096_S256x1024_1_1_0_0_n_n.lhsIdx j q 1).val = (q ⟨0, by decide⟩).val :=
  dot_S256x4096_S1024x4096_S256x1024_1_1_0_0_n_n.lhsIdx_val_of_single rfl j q
theorem baseDims_r0 (j : S256x1024.Idx) (q : dot_S256x4096_S1024x4096_S256x1024_1_1_0_0_n_n.contr.Idx) :
    (dot_S256x4096_S1024x4096_S256x1024_1_1_0_0_n_n.rhsIdx j q 0).val = (j 1).val := by
  unfold DotDims.rhsIdx
  rw [dif_neg (show ¬(0 : Fin S1024x4096.rank) ∈ dot_S256x4096_S1024x4096_S256x1024_1_1_0_0_n_n.rhsBatch by decide),
    dif_pos (show (0 : Fin S1024x4096.rank) ∈ dot_S256x4096_S1024x4096_S256x1024_1_1_0_0_n_n.rhsNonContracting by decide)]
  rfl
theorem baseDims_r1 (j : S256x1024.Idx) (q : dot_S256x4096_S1024x4096_S256x1024_1_1_0_0_n_n.contr.Idx) :
    (dot_S256x4096_S1024x4096_S256x1024_1_1_0_0_n_n.rhsIdx j q 1).val = (q ⟨0, by decide⟩).val :=
  dot_S256x4096_S1024x4096_S256x1024_1_1_0_0_n_n.rhsIdx_val_of_single rfl j q

theorem corrDims_l0 (j : S256x1024.Idx) (q : dot_S256x16_S1024x16_S256x1024_1_1_0_0_n_n.contr.Idx) :
    (dot_S256x16_S1024x16_S256x1024_1_1_0_0_n_n.lhsIdx j q 0).val = (j 0).val := by
  unfold DotDims.lhsIdx
  rw [dif_neg (show ¬(0 : Fin S256x16.rank) ∈ dot_S256x16_S1024x16_S256x1024_1_1_0_0_n_n.lhsBatch by decide),
    dif_pos (show (0 : Fin S256x16.rank) ∈ dot_S256x16_S1024x16_S256x1024_1_1_0_0_n_n.lhsNonContracting by decide)]
  rfl
theorem corrDims_l1 (j : S256x1024.Idx) (q : dot_S256x16_S1024x16_S256x1024_1_1_0_0_n_n.contr.Idx) :
    (dot_S256x16_S1024x16_S256x1024_1_1_0_0_n_n.lhsIdx j q 1).val = (q ⟨0, by decide⟩).val :=
  dot_S256x16_S1024x16_S256x1024_1_1_0_0_n_n.lhsIdx_val_of_single rfl j q
theorem corrDims_r0 (j : S256x1024.Idx) (q : dot_S256x16_S1024x16_S256x1024_1_1_0_0_n_n.contr.Idx) :
    (dot_S256x16_S1024x16_S256x1024_1_1_0_0_n_n.rhsIdx j q 0).val = (j 1).val := by
  unfold DotDims.rhsIdx
  rw [dif_neg (show ¬(0 : Fin S1024x16.rank) ∈ dot_S256x16_S1024x16_S256x1024_1_1_0_0_n_n.rhsBatch by decide),
    dif_pos (show (0 : Fin S1024x16.rank) ∈ dot_S256x16_S1024x16_S256x1024_1_1_0_0_n_n.rhsNonContracting by decide)]
  rfl
theorem corrDims_r1 (j : S256x1024.Idx) (q : dot_S256x16_S1024x16_S256x1024_1_1_0_0_n_n.contr.Idx) :
    (dot_S256x16_S1024x16_S256x1024_1_1_0_0_n_n.rhsIdx j q 1).val = (q ⟨0, by decide⟩).val :=
  dot_S256x16_S1024x16_S256x1024_1_1_0_0_n_n.rhsIdx_val_of_single rfl j q

/-! ## The two bodies at an entry -/

/-- The first body: entry `(r, k)` of the token block times the factor, rows against rows. -/
theorem midBody_apply (x0 : FVec Ideal S256x4096 .bf16) (x1 : FVec Ideal S16x4096 .bf16) (r : Fin 256) (k : Fin 16) :
    k0_pay1 (F := Ideal) x0 x1 (ix2 r k) = ∑ d : Fin 4096, x0 (ix2 r d) * x1 (ix2 k d) := by
  unfold k0_pay1
  simp only [shapeCast_self]
  exact Cert.TransposedProduct.matmul_rowsT_apply dot_S256x4096_S16x4096_S256x16_1_1_0_0_n_n rfl rfl
    midDims_l0 midDims_l1 midDims_r0 midDims_r1 none x0 x1 r k

/-- The second body: entry `(r, c)` is the token row against the weight row, plus the scaled product of the
    [256, 16] block's row against the other factor's row. -/
theorem mainBody_apply (x0 : FVec Ideal S256x4096 .bf16) (x1 : FVec Ideal S1024x4096 .bf16)
    (x2 : FVec Ideal S256x16 .f32) (x3 : FVec Ideal S1024x16 .bf16) (r : Fin 256) (c : Fin 1024) :
    k1_pay1 (F := Ideal) x0 x1 x2 x3 (ix2 r c)
      = (∑ d : Fin 4096, x0 (ix2 r d) * x1 (ix2 c d))
        + (∑ k : Fin 16, x2 (ix2 r k) * x3 (ix2 c k)) * Ideal.ofBits .f32 0x40000000#32 := by
  unfold k1_pay1
  simp only [shapeCast_self]
  rw [addf_apply, mulf_apply, broadcast_apply]
  refine congrArg₂ (· + ·) ?_ (congrArg₂ (· * ·) ?_ rfl)
  · exact Cert.TransposedProduct.matmul_rowsT_apply dot_S256x4096_S1024x4096_S256x1024_1_1_0_0_n_n rfl rfl
      baseDims_l0 baseDims_l1 baseDims_r0 baseDims_r1 none x0 x1 r c
  · exact Cert.TransposedProduct.matmul_rowsT_apply dot_S256x16_S1024x16_S256x1024_1_1_0_0_n_n rfl rfl
      corrDims_l0 corrDims_l1 corrDims_r0 corrDims_r1 none (truncf .bf16 x2 bitsLt_bf16_f32) x3 r c

end Cert.KernelIdeal.Bodies

end
-- ==== Proof.MidRegion.lean ====
import proofs.«129847_j82660940578996_2_alg».proof.Proof.Gen.KernelIdeal.Frame
import proofs.«129847_j82660940578996_2_alg».proof.Proof.Bodies
import proofs.«129847_j82660940578996_2_alg».proof.Proof.Spec
import Idealize.ShloMosaic.Lib.Pipeline.Value
import Idealize.ShloMosaic.Lib.ValueIdx

/-!
# The first kernel's output array: `X·Aᵀ`

The first kernel runs over 16 grid points. At point `t` it loads rows `256·t … 256·t + 255` of the token matrix
(its first array, [4096, 4096]) and the whole factor (its second array, [16, 4096]) and writes rows
`256·t … 256·t + 255` of its output array [4096, 16]. The 16 row blocks tile the output, and every written entry
`(256·t + r, k)` is row `256·t + r` of the first array against row `k` of the second. So whatever the two
arrays hold when the kernel is entered, the output array ends at `X·Aᵀ` of them.
-/

noncomputable section

open scoped BigOperators

namespace Cert.KernelIdeal.MidRegion

open Cert.KernelIdeal Cert.KernelIdeal.Gen Idealize.ShloMosaic Idealize.ShloMosaic.TcCoe Idealize.SL.Sem
open Idealize.ShloMosaic.ValueIdx Cert.KernelIdeal.Bodies
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The block index of each window at each of the 16 points: the token block and the output block move down
    with the point, the factor stays. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 16 := by
  exact Nat.lt_of_lt_of_eq t.isLt N_0

/-- Row `r` of point `t`'s block, as a row of the whole matrix. -/
def rowIn (t : Fin cfg0.N) (r : Fin 256) : Fin 4096 := ⟨t.val * 256 + r.val, by have := point_lt t; omega⟩

/-- The token block at point `t` is rows `256·t …` of the first array. -/
theorem tokBlock_apply (c : Dev nD) (t : Fin cfg0.N) (r : Fin 256) (d : Fin 4096) :
    (iblk0 V c 0 t : FVec Ideal S256x4096 .bf16) (ix2 r d)
      = (V c main_v1 : S4096x4096.Idx → EReal) (ix2 (rowIn t r) d) := by
  obtain ⟨e0, e1, -⟩ := blockIndex t
  show V c main_v1 (((cfg0.win 0).blk t).view.emb (ix2 r d)) = V c main_v1 (ix2 (rowIn t r) d)
  refine congrArg (V c main_v1) (funext fun a => Fin.ext ?_)
  match a with
  | ⟨0, _⟩ => show win0_0.index t (0 : Fin 2) * 256 + 1 * r.val = t.val * 256 + r.val; omega
  | ⟨1, _⟩ => show win0_0.index t (1 : Fin 2) * 4096 + 1 * d.val = d.val; omega

/-- The factor block at every point is the whole second array. -/
theorem facBlock_apply (c : Dev nD) (t : Fin cfg0.N) (k : Fin 16) (d : Fin 4096) :
    (iblk0 V c 1 t : FVec Ideal S16x4096 .bf16) (ix2 k d) = (V c main_v3 : S16x4096.Idx → EReal) (ix2 k d) := by
  obtain ⟨-, -, e2, e3, -⟩ := blockIndex t
  show V c main_v3 (((cfg0.win 1).blk t).view.emb (ix2 k d)) = V c main_v3 (ix2 k d)
  refine congrArg (V c main_v3) (funext fun a => Fin.ext ?_)
  match a with
  | ⟨0, _⟩ => show win0_1.index t (0 : Fin 2) * 16 + 1 * k.val = k.val; omega
  | ⟨1, _⟩ => show win0_1.index t (1 : Fin 2) * 4096 + 1 * d.val = d.val; omega

/-- Where entry `(r, k)` of point `t`'s output block sits in the output array. -/
theorem outBlock_emb (t : Fin cfg0.N) (r : Fin 256) (k : Fin 16) :
    ((cfg0.win 2).blk t).view.emb (ix2 r k) = (ix2 (rowIn t r) k : S4096x16.Idx) := by
  obtain ⟨-, -, -, -, e4, e5⟩ := blockIndex t
  refine funext fun a => Fin.ext ?_
  match a with
  | ⟨0, _⟩ => show win0_2.index t (0 : Fin 2) * 256 + 1 * r.val = t.val * 256 + r.val; omega
  | ⟨1, _⟩ => show win0_2.index t (1 : Fin 2) * 16 + 1 * k.val = k.val; omega

/-- What point `t` writes back is block `t` of `X·Aᵀ` of the two arrays as the kernel finds them. -/
theorem flushed_eq (c : Dev nD) (t : Fin cfg0.N) :
    (dat0 V c).flushed 2 t
      = ((cfg0.win 2).blk t).view.read (Elt Ideal) (Cert.LowRank.mid (V c main_v1) (V c main_v3)) := by
  show (cfg0.win 2).cut (grid0.coords t) ((dat0 V c).after 2 t) = _
  rw [after0_2]
  unfold out0_2
  rw [View.canon_unit_zero offsets_zero]
  simp only [View.ld_unit_zero (S := S256x4096) offsets_zero, View.ld_unit_zero (S := S16x4096) offsets_zero]
  funext j
  obtain ⟨r, k, rfl⟩ : ∃ (r : Fin 256) (k : Fin 16), j = ix2 r k := ⟨j 0, j 1, eq_ix2 j⟩
  show k0_pay1 (iblk0 V c 0 t) (iblk0 V c 1 t) (ix2 r k)
    = Cert.LowRank.mid (V c main_v1) (V c main_v3) (((cfg0.win 2).blk t).view.emb (ix2 r k))
  refine (midBody_apply (iblk0 V c 0 t) (iblk0 V c 1 t) r k).trans ?_
  rw [outBlock_emb t r k, Cert.LowRank.mid_ix2]
  unfold Cert.LowRank.midAt
  refine Finset.sum_congr rfl fun d _ => ?_
  rw [tokBlock_apply V c t r d, facBlock_apply V c t k d]

/-- An entry of the output array is in point `t`'s block iff each coordinate is in the block's range. -/
theorem mem_blk (t : Fin cfg0.N) (i : S4096x16.Idx) :
    i ∈ ((cfg0.win 2).blk t).view.set ↔ ∀ a : Fin 2, win0_2.index t a * S256x16.size a ≤ (i a).val
      ∧ (i a).val < win0_2.index t a * S256x16.size a + S256x16.size a := by
  show i ∈ ((View.whole main_v5).slice (win0_2.rect t)).set ↔ _
  rw [View.set_slice_whole, Rect.mem_set_unit]
  exact Iff.rfl

/-- Every entry of the output array is written by the point that owns its row block. -/
theorem cover (i : S4096x16.Idx) :
    ∃ t : Fin cfg0.N, (cfg0.win 2).flush t = true ∧ i ∈ ((cfg0.win 2).blk t).view.set := by
  have h0 : (i 0).val < 4096 := (i 0).isLt
  have h1 : (i 1).val < 16 := (i 1).isLt
  have ht : (i 0).val / 256 < cfg0.N := by rw [show cfg0.N = 16 from N_0]; omega
  obtain ⟨-, -, -, -, e4, e5⟩ := blockIndex ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, ht⟩ (1 : Fin 2) * 16 ≤ (i 1).val
      ∧ (i 1).val < win0_2.index ⟨(i 0).val / 256, ht⟩ (1 : Fin 2) * 16 + 16
    rw [e5]; omega

/-- THE FIRST KERNEL'S OUTPUT ARRAY after its run: `X·Aᵀ` of its two input arrays as it finds them. -/
theorem final (c : Dev nD) :
    (dat0 V c).arrAt 2 cfg0.N = Cert.LowRank.mid (V c main_v1) (V c main_v3) :=
  (dat0 V c).arrAt_eq_of_cover 2 (Cert.LowRank.mid (V c main_v1) (V c main_v3)) (fun t _ => flushed_eq V c t) cover

end Cert.KernelIdeal.MidRegion

end
-- ==== Proof.MainRegion.lean ====
import proofs.«129847_j82660940578996_2_alg».proof.Proof.Gen.KernelIdeal.Frame
import proofs.«129847_j82660940578996_2_alg».proof.Proof.Bodies
import proofs.«129847_j82660940578996_2_alg».proof.Proof.Spec
import Idealize.ShloMosaic.Lib.Pipeline.Value
import Idealize.ShloMosaic.Lib.ValueIdx

/-!
# The second kernel's output array: `X·Wᵀ + (M·Bᵀ)·scale`

The second kernel runs over a 16 × 16 grid, the column-block coordinate outermost: point `t` has column block
`t / 16` and row block `t % 16`. It loads rows `256·(t % 16) …` of the token matrix (first array,
[4096, 4096]) and of the [4096, 16] array (third), rows `1024·(t / 16) …` of the weight (second array,
[16384, 4096]) and of the other factor (fourth, [16384, 16]), and writes the [256, 1024] block at row block
`t % 16`, column block `t / 16` of its output array [4096, 16384]. The 256 blocks tile the output, and a written
entry `(R, O)` is row `R` of the first array against row `O` of the second, plus the scaled product of row
`R` of the third against row `O` of the fourth. So whatever the four arrays hold when the kernel is entered,
the output array ends at `X·Wᵀ + (M·Bᵀ)·scale` of them.
-/

noncomputable section

open scoped BigOperators

namespace Cert.KernelIdeal.MainRegion

open Cert.KernelIdeal Cert.KernelIdeal.Gen Idealize.ShloMosaic Idealize.ShloMosaic.TcCoe Idealize.SL.Sem
open Idealize.ShloMosaic.ValueIdx Cert.KernelIdeal.Bodies
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The block index of each window at each of the 256 points. -/
theorem blockIndex : ∀ t : Fin cfg1.N, win1_0.index t (0 : Fin 2) = t.val % 16 ∧ win1_0.index t (1 : Fin 2) = 0
    ∧ win1_1.index t (0 : Fin 2) = t.val / 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0
    ∧ win1_4.index t (0 : Fin 2) = t.val % 16 ∧ win1_4.index t (1 : Fin 2) = t.val / 16 :=
  (by decide +kernel : ∀ t : Fin grid1.N, _)

theorem point_lt (t : Fin cfg1.N) : t.val < 256 := by
  exact Nat.lt_of_lt_of_eq t.isLt N_1

/-- Row `r` of point `t`'s row block, as a row of the [4096, ·] arrays. -/
def rowIn (t : Fin cfg1.N) (r : Fin 256) : Fin 4096 := ⟨t.val % 16 * 256 + r.val, by omega⟩
/-- Row `q` of point `t`'s column block, as a row of the [16384, ·] arrays (a column of the output). -/
def colIn (t : Fin cfg1.N) (q : Fin 1024) : Fin 16384 := ⟨t.val / 16 * 1024 + q.val, by have := point_lt t; omega⟩

theorem tokBlock_apply (c : Dev nD) (t : Fin cfg1.N) (r : Fin 256) (d : Fin 4096) :
    (iblk1 V c 0 t : FVec Ideal S256x4096 .bf16) (ix2 r d)
      = (V c main_v1 : S4096x4096.Idx → EReal) (ix2 (rowIn t r) d) := by
  obtain ⟨e0, e1, -⟩ := blockIndex t
  show V c main_v1 (((cfg1.win 0).blk t).view.emb (ix2 r d)) = V c main_v1 (ix2 (rowIn t r) d)
  refine congrArg (V c main_v1) (funext fun a => Fin.ext ?_)
  match a with
  | ⟨0, _⟩ => show win1_0.index t (0 : Fin 2) * 256 + 1 * r.val = t.val % 16 * 256 + r.val; omega
  | ⟨1, _⟩ => show win1_0.index t (1 : Fin 2) * 4096 + 1 * d.val = d.val; omega

theorem weightBlock_apply (c : Dev nD) (t : Fin cfg1.N) (q : Fin 1024) (d : Fin 4096) :
    (iblk1 V c 1 t : FVec Ideal S1024x4096 .bf16) (ix2 q d)
      = (V c main_v2 : S16384x4096.Idx → EReal) (ix2 (colIn t q) d) := by
  obtain ⟨-, -, e2, e3, -⟩ := blockIndex t
  show V c main_v2 (((cfg1.win 1).blk t).view.emb (ix2 q d)) = V c main_v2 (ix2 (colIn t q) d)
  refine congrArg (V c main_v2) (funext fun a => Fin.ext ?_)
  match a with
  | ⟨0, _⟩ => show win1_1.index t (0 : Fin 2) * 1024 + 1 * q.val = t.val / 16 * 1024 + q.val; omega
  | ⟨1, _⟩ => show win1_1.index t (1 : Fin 2) * 4096 + 1 * d.val = d.val; omega

theorem midBlock_apply (c : Dev nD) (t : Fin cfg1.N) (r : Fin 256) (k : Fin 16) :
    (iblk1 V c 2 t : FVec Ideal S256x16 .f32) (ix2 r k)
      = (V c main_v5 : S4096x16.Idx → EReal) (ix2 (rowIn t r) k) := by
  obtain ⟨-, -, -, -, e4, e5, -⟩ := blockIndex t
  show V c main_v5 (((cfg1.win 2).blk t).view.emb (ix2 r k)) = V c main_v5 (ix2 (rowIn t r) k)
  refine congrArg (V c main_v5) (funext fun a => Fin.ext ?_)
  match a with
  | ⟨0, _⟩ => show win1_2.index t (0 : Fin 2) * 256 + 1 * r.val = t.val % 16 * 256 + r.val; omega
  | ⟨1, _⟩ => show win1_2.index t (1 : Fin 2) * 16 + 1 * k.val = k.val; omega

theorem facBlock_apply (c : Dev nD) (t : Fin cfg1.N) (q : Fin 1024) (k : Fin 16) :
    (iblk1 V c 3 t : FVec Ideal S1024x16 .bf16) (ix2 q k)
      = (V c main_v4 : S16384x16.Idx → EReal) (ix2 (colIn t q) k) := by
  obtain ⟨-, -, -, -, -, -, e6, e7, -⟩ := blockIndex t
  show V c main_v4 (((cfg1.win 3).blk t).view.emb (ix2 q k)) = V c main_v4 (ix2 (colIn t q) k)
  refine congrArg (V c main_v4) (funext fun a => Fin.ext ?_)
  match a with
  | ⟨0, _⟩ => show win1_3.index t (0 : Fin 2) * 1024 + 1 * q.val = t.val / 16 * 1024 + q.val; omega
  | ⟨1, _⟩ => show win1_3.index t (1 : Fin 2) * 16 + 1 * k.val = k.val; omega

/-- Where entry `(r, q)` of point `t`'s output block sits in the output array. -/
theorem outBlock_emb (t : Fin cfg1.N) (r : Fin 256) (q : Fin 1024) :
    ((cfg1.win 4).blk t).view.emb (ix2 r q) = (ix2 (rowIn t r) (colIn t q) : S4096x16384.Idx) := by
  obtain ⟨-, -, -, -, -, -, -, -, e8, e9⟩ := blockIndex t
  refine funext fun a => Fin.ext ?_
  match a with
  | ⟨0, _⟩ => show win1_4.index t (0 : Fin 2) * 256 + 1 * r.val = t.val % 16 * 256 + r.val; omega
  | ⟨1, _⟩ => show win1_4.index t (1 : Fin 2) * 1024 + 1 * q.val = t.val / 16 * 1024 + q.val; omega

/-- What point `t` writes back is block `t` of `X·Wᵀ + (M·Bᵀ)·scale` of the four arrays as the kernel finds them. -/
theorem flushed_eq (c : Dev nD) (t : Fin cfg1.N) :
    (dat1 V c).flushed 4 t = ((cfg1.win 4).blk t).view.read (Elt Ideal)
      (Cert.LowRank.out (V c main_v1) (V c main_v2) (V c main_v5) (V c main_v4)) := by
  show (cfg1.win 4).cut (grid1.coords t) ((dat1 V c).after 4 t) = _
  rw [after1_4]
  unfold out1_4
  rw [View.canon_unit_zero offsets_zero]
  simp only [View.ld_unit_zero (S := S256x4096) offsets_zero, View.ld_unit_zero (S := S1024x4096) offsets_zero,
    View.ld_unit_zero (S := S256x16) offsets_zero, View.ld_unit_zero (S := S1024x16) offsets_zero]
  funext j
  obtain ⟨r, q, rfl⟩ : ∃ (r : Fin 256) (q : Fin 1024), j = ix2 r q := ⟨j 0, j 1, eq_ix2 j⟩
  show k1_pay1 (iblk1 V c 0 t) (iblk1 V c 1 t) (iblk1 V c 2 t) (iblk1 V c 3 t) (ix2 r q)
    = Cert.LowRank.out (V c main_v1) (V c main_v2) (V c main_v5) (V c main_v4) (((cfg1.win 4).blk t).view.emb (ix2 r q))
  refine (mainBody_apply (iblk1 V c 0 t) (iblk1 V c 1 t) (iblk1 V c 2 t) (iblk1 V c 3 t) r q).trans ?_
  rw [outBlock_emb t r q, Cert.LowRank.out_ix2]
  unfold Cert.LowRank.outAt
  refine congrArg₂ (· + ·) (Finset.sum_congr rfl fun d _ => ?_)
    (congrArg₂ (· * ·) (Finset.sum_congr rfl fun k _ => ?_) rfl)
  · rw [tokBlock_apply V c t r d, weightBlock_apply V c t q d]
  · rw [midBlock_apply V c t r k, facBlock_apply V c t q k]

/-- An entry of the output array is in point `t`'s block iff each coordinate is in the block's range. -/
theorem mem_blk (t : Fin cfg1.N) (i : S4096x16384.Idx) :
    i ∈ ((cfg1.win 4).blk t).view.set ↔ ∀ a : Fin 2, win1_4.index t a * S256x1024.size a ≤ (i a).val
      ∧ (i a).val < win1_4.index t a * S256x1024.size a + S256x1024.size a := by
  show i ∈ ((View.whole main_v6).slice (win1_4.rect t)).set ↔ _
  rw [View.set_slice_whole, Rect.mem_set_unit]
  exact Iff.rfl

/-- Every entry of the output array is written by the point that owns its row block and column block. -/
theorem cover (i : S4096x16384.Idx) :
    ∃ t : Fin cfg1.N, (cfg1.win 4).flush t = true ∧ i ∈ ((cfg1.win 4).blk t).view.set := by
  have h0 : (i 0).val < 4096 := (i 0).isLt
  have h1 : (i 1).val < 16384 := (i 1).isLt
  have ht : (i 1).val / 1024 * 16 + (i 0).val / 256 < cfg1.N := by rw [show cfg1.N = 256 from N_1]; omega
  obtain ⟨-, -, -, -, -, -, -, -, e8, e9⟩ := blockIndex ⟨(i 1).val / 1024 * 16 + (i 0).val / 256, ht⟩
  refine ⟨⟨(i 1).val / 1024 * 16 + (i 0).val / 256, ht⟩, flush1_4 _, ?_⟩
  rw [mem_blk]
  intro a
  match a with
  | ⟨0, _⟩ =>
    show win1_4.index ⟨(i 1).val / 1024 * 16 + (i 0).val / 256, ht⟩ (0 : Fin 2) * 256 ≤ (i 0).val
      ∧ (i 0).val < win1_4.index ⟨(i 1).val / 1024 * 16 + (i 0).val / 256, ht⟩ (0 : Fin 2) * 256 + 256
    rw [e8]
    show ((i 1).val / 1024 * 16 + (i 0).val / 256) % 16 * 256 ≤ (i 0).val
      ∧ (i 0).val < ((i 1).val / 1024 * 16 + (i 0).val / 256) % 16 * 256 + 256
    omega
  | ⟨1, _⟩ =>
    show win1_4.index ⟨(i 1).val / 1024 * 16 + (i 0).val / 256, ht⟩ (1 : Fin 2) * 1024 ≤ (i 1).val
      ∧ (i 1).val < win1_4.index ⟨(i 1).val / 1024 * 16 + (i 0).val / 256, ht⟩ (1 : Fin 2) * 1024 + 1024
    rw [e9]
    show ((i 1).val / 1024 * 16 + (i 0).val / 256) / 16 * 1024 ≤ (i 1).val
      ∧ (i 1).val < ((i 1).val / 1024 * 16 + (i 0).val / 256) / 16 * 1024 + 1024
    omega

/-- THE SECOND KERNEL'S OUTPUT ARRAY after its run: `X·Wᵀ + (M·Bᵀ)·scale` of its four input arrays as it finds them. -/
theorem final (c : Dev nD) :
    (dat1 V c).arrAt 4 cfg1.N = Cert.LowRank.out (V c main_v1) (V c main_v2) (V c main_v5) (V c main_v4) :=
  (dat1 V c).arrAt_eq_of_cover 4 (Cert.LowRank.out (V c main_v1) (V c main_v2) (V c main_v5) (V c main_v4))
    (fun t _ => flushed_eq V c t) cover

end Cert.KernelIdeal.MainRegion

end
-- ==== Proof.Boundaries.lean ====
import proofs.«129847_j82660940578996_2_alg».proof.Proof.MidRegion
import proofs.«129847_j82660940578996_2_alg».proof.Proof.MainRegion
import Idealize.ShloMosaic.Lib.StableHlo.Run
import Idealize.ShloMosaic.Lib.Pipeline.Value
import Idealize.ShloMosaic.Lib.ValueIdx

/-!
# From the launch memory to the result buffer

Before the first kernel the host lays the tokens [2, 2048, 4096] out as the 4096 rows of a matrix (row
`b·2048 + s` is token `(b, s)`) and narrows it, the weight and the two factors to bf16 — the identity on the
extended reals. The first kernel leaves `M = X·Aᵀ` in its output array and touches nothing else; the second reads
the same matrix, the weight, `M` and the other factor and leaves `X·Wᵀ + (M·Bᵀ)·scale`; the host then reads
that [4096, 16384] array as [2, 2048, 16384], entry `(b, s, o)` from row `b·2048 + s`. Chaining the four steps,
the result buffer holds the layer of the four float arguments.
-/

noncomputable section

open scoped BigOperators

namespace Cert.KernelIdeal.Boundaries

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the first kernel finds: the host's reshape and narrowings -/

/-- The token matrix is the token array read row-major. -/
theorem tokens_eq (c : Dev nD) : (V1 m ρ c main_v1 : S4096x4096.Idx → EReal)
    = shapeCast S4096x4096 (m ((c : Thread nD τ).loc main_arg0) : S2x2048x4096.Idx → EReal) shapeCasts_S2x2048x4096_S4096x4096 := by
  show StableHlo.after hostOps0 (W0 m ρ c) (Proc.devRef .tc main_v1) = _
  after_results
  rfl

/-- Row `b·2048 + s` of the token matrix is token `(b, s)`. -/
theorem tokens_apply (c : Dev nD) (b : Fin 2) (s : Fin 2048) (d : Fin 4096) :
    (V1 m ρ c main_v1 : S4096x4096.Idx → EReal) (ix2 (Cert.LowRank.rowOf b s) d)
      = (m ((c : Thread nD τ).loc main_arg0) : S2x2048x4096.Idx → EReal) (ix3 b s d) := by
  rw [tokens_eq]
  refine shapeCast_apply _ _ _ (ix3 b s d) ?_
  rw [Shape.rowMajor_val_three, Shape.rowMajor_val_two]
  show (b.val * 2048 + s.val) * 4096 + d.val = (b.val * 2048 + s.val) * 4096 + d.val
  rfl

theorem weight_eq (c : Dev nD) : (V1 m ρ c main_v2 : S16384x4096.Idx → EReal) = m ((c : Thread nD τ).loc main_arg1) := by
  show StableHlo.after hostOps0 (W0 m ρ c) (Proc.devRef .tc main_v2) = _
  after_results
  rfl

theorem factorA_eq (c : Dev nD) : (V1 m ρ c main_v3 : S16x4096.Idx → EReal) = m ((c : Thread nD τ).loc main_arg3) := by
  show StableHlo.after hostOps0 (W0 m ρ c) (Proc.devRef .tc main_v3) = _
  after_results
  rfl

theorem factorB_eq (c : Dev nD) : (V1 m ρ c main_v4 : S16384x16.Idx → EReal) = m ((c : Thread nD τ).loc main_arg4) := by
  show StableHlo.after hostOps0 (W0 m ρ c) (Proc.devRef .tc main_v4) = _
  after_results
  rfl

/-! ## What the second kernel finds: the first kernel's output, everything else as before -/

theorem mid_eq (c : Dev nD) : (V2 m ρ c main_v5 : S4096x16.Idx → EReal)
    = Cert.LowRank.mid (V1 m ρ c main_v1) (V1 m ρ c main_v3) :=
  (W2_arr m ρ c 2).trans (MidRegion.final (V1 m ρ) c)

theorem tokens_kept (c : Dev nD) : V2 m ρ c main_v1 = V1 m ρ c main_v1 :=
  (W2_arr m ρ c 0).trans (((dat0 (V1 m ρ) c).arrAt_in 0 rfl _).trans (A_eq0 (V1 m ρ) c 0))

theorem weight_kept (c : Dev nD) : V2 m ρ c main_v2 = V1 m ρ c main_v2 := W2_of_ne m ρ c main_v2 (by decide)

theorem factorB_kept (c : Dev nD) : V2 m ρ c main_v4 = V1 m ρ c main_v4 := W2_of_ne m ρ c main_v4 (by decide)

/-! ## The result buffer -/

/-- The second kernel's output array, from the launch memory. -/
theorem out_eq (c : Dev nD) : (W3 m ρ c (Proc.devRef .tc main_v6) : S4096x16384.Idx → EReal)
    = Cert.LowRank.out (V1 m ρ c main_v1) (m ((c : Thread nD τ).loc main_arg1))
        (Cert.LowRank.mid (V1 m ρ c main_v1) (m ((c : Thread nD τ).loc main_arg3))) (m ((c : Thread nD τ).loc main_arg4)) := by
  have h : (W3 m ρ c (Proc.devRef .tc main_v6) : S4096x16384.Idx → EReal)
      = Cert.LowRank.out (V2 m ρ c main_v1) (V2 m ρ c main_v2) (V2 m ρ c main_v5) (V2 m ρ c main_v4) :=
    (W3_arr m ρ c 4).trans (MainRegion.final (V2 m ρ) c)
  rw [h, mid_eq, tokens_kept, weight_kept, factorB_kept, weight_eq, factorA_eq, factorB_eq]

/-- The host's last reshape. -/
theorem tail_eq (c : Dev nD) : (W4 m ρ c (Proc.devRef .tc main_v7) : S2x2048x16384.Idx → EReal)
    = shapeCast S2x2048x16384 (W3 m ρ c (Proc.devRef .tc main_v6) : S4096x16384.Idx → EReal) shapeCasts_S4096x16384_S2x2048x16384 := by
  show StableHlo.after hostOps2 (W3 m ρ c) (Proc.devRef .tc main_v7) = _
  after_results
  rfl

/-- THE RESULT BUFFER after the last segment: the layer of the four float arguments as launched. -/
theorem result_eq (c : Dev nD) : (W4 m ρ c (Proc.devRef .tc main_v7) : S2x2048x16384.Idx → EReal)
    = Cert.LowRank.layer (m ((c : Thread nD τ).loc main_arg0)) (m ((c : Thread nD τ).loc main_arg1))
        (m ((c : Thread nD τ).loc main_arg3)) (m ((c : Thread nD τ).loc main_arg4)) := by
  rw [tail_eq, out_eq]
  funext i
  obtain ⟨b, s, o, rfl⟩ : ∃ (b : Fin 2) (s : Fin 2048) (o : Fin 16384), i = ix3 b s o := ⟨i 0, i 1, i 2, eq_ix3 i⟩
  refine (shapeCast_apply _ _ (ix3 b s o) (ix2 (Cert.LowRank.rowOf b s) o) ?_).trans ?_
  · rw [Shape.rowMajor_val_three, Shape.rowMajor_val_two]
    show (b.val * 2048 + s.val) * 16384 + o.val = (b.val * 2048 + s.val) * 16384 + o.val
    rfl
  · rw [Cert.LowRank.out_ix2, Cert.LowRank.layer_ix3]
    exact Cert.LowRank.outAt_rowOf _ _ _ _ _ (tokens_apply m ρ c) b s o

end Cert.KernelIdeal.Boundaries

end
-- ==== Proof.KernelRun.lean ====
import proofs.«129847_j82660940578996_2_alg».proof.Proof.Gen.KernelIdeal.Frame

/-!
# The kernel program's run, with its result buffer named

The program is four segments: five host operations (a reshape of the tokens and four narrowings to bf16), the first
kernel, the second kernel, and one host reshape of the second kernel's output. The contents of every buffer at each
segment boundary are a fold from the launch memory: after the leading host operations, after the first kernel (its
output array at what its write-backs leave, everything else untouched), after the second kernel likewise, after the
trailing reshape. Every weakly fair execution terminates, and every final memory holds, at every buffer that outlives
the kernels, the last boundary's contents; in particular the result buffer holds the last boundary's contents at
that buffer, and the five argument buffers hold what they held at launch.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions inside a metavariable's type
set_option backward.isDefEq.respectTransparency.types false in
/-- Every weakly fair execution of the program terminates without a fault; afterwards the result buffer holds the last
    segment boundary's contents there, and each argument buffer what it held at launch. -/
theorem run_main : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.lean ====
/- A linear layer with a low-rank correction, as a two-kernel program against its reference, on the extended reals.

   Both programs compute, at token `(b, s)` and output feature `o`,
     Σ_d x(b,s,d)·W(o,d) + (Σ_k (Σ_d x(b,s,d)·A(k,d))·B(o,k))·2,
   and pass the bias through untouched. The reference does it with three contractions over the [2, 2048, ·] arrays.
   The kernel program lays the tokens out as 4096 matrix rows, narrows its operands to bf16 (the identity on the
   extended reals), computes `M = X·Aᵀ` in a first kernel over 16 row blocks and `X·Wᵀ + (M·Bᵀ)·2` in a second
   kernel over 16 × 16 blocks, and reads the result back as [2, 2048, 16384]. The sums on the two sides range over
   the same products in the same grouping, so no law of arithmetic and no finiteness is needed: the proof is that
   every block read, block write and reshape lands where the formula says.

   The modules: `Spec` (the layer and its matrix form, as functions of the arrays), `RefIsLayer` (the reference's
   term is the layer), `Bodies` (each kernel body at an entry), `MidRegion` / `MainRegion` (each kernel's output
   array after its run, from the arrays it finds), `Boundaries` (the contents from launch to the result buffer),
   `KernelRun` (the program's run with the result buffer named). -/
import proofs.«129847_j82660940578996_2_alg».proof.Defs
import proofs.«129847_j82660940578996_2_alg».proof.Proof.Gen.Kernel
import proofs.«129847_j82660940578996_2_alg».proof.Proof.Gen.Kernel.Skeleton
import proofs.«129847_j82660940578996_2_alg».proof.Proof.Gen.Kernel.Launch
import proofs.«129847_j82660940578996_2_alg».proof.Proof.Gen.Kernel.Points
import proofs.«129847_j82660940578996_2_alg».proof.Proof.Gen.Kernel.Frame
import proofs.«129847_j82660940578996_2_alg».proof.Proof.Gen.KernelIdeal
import proofs.«129847_j82660940578996_2_alg».proof.Proof.Gen.KernelIdeal.Skeleton
import proofs.«129847_j82660940578996_2_alg».proof.Proof.Gen.KernelIdeal.Launch
import proofs.«129847_j82660940578996_2_alg».proof.Proof.Gen.KernelIdeal.Points
import proofs.«129847_j82660940578996_2_alg».proof.Proof.Gen.KernelIdeal.Frame
import proofs.«129847_j82660940578996_2_alg».proof.Proof.Gen.ReferenceIdeal
import proofs.«129847_j82660940578996_2_alg».proof.Proof.Gen.ReferenceIdeal.Run
import proofs.«129847_j82660940578996_2_alg».proof.Proof.Gen.ReferenceIdeal.Read
import proofs.«129847_j82660940578996_2_alg».proof.Proof.Gen.Pre_finite_inputs
import proofs.«129847_j82660940578996_2_alg».proof.Proof.RefIsLayer
import proofs.«129847_j82660940578996_2_alg».proof.Proof.Boundaries
import proofs.«129847_j82660940578996_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the layer of the four float arguments in the result buffer and the bias where it was. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.LowRank.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3))
      (m ((c : Thread Cert.KernelIdeal.nD Cert.KernelIdeal.τ).loc Cert.KernelIdeal.main_arg4)),
    fun c => m ((c : Thread Cert.KernelIdeal.nD Cert.KernelIdeal.τ).loc Cert.KernelIdeal.main_arg2), ?_, ?_⟩
  · refine (θ_run Cert.KernelIdeal.defs _ _).mono (fun r h c => ?_) (Cert.KernelIdeal.Run.run_main (F := Ideal) m ρ)
    obtain ⟨h7, h0, h1, h2, h3, h4⟩ := h c
    exact ⟨h7.trans (Cert.KernelIdeal.Boundaries.result_eq m ρ c), h2, h0, h1, h2, h3, h4⟩
  · refine (θ_run Cert.ReferenceIdeal.defs _ _).mono (fun r h c => ?_) (Cert.ReferenceIdeal.Value.run (F := Ideal) m' ρ')
    obtain ⟨h5, hb, h0, h1, h2, h3, h4⟩ := h c
    obtain ⟨a0, a1, a2, a3, a4⟩ := hagree c
    refine ⟨?_, hb.trans a2, h0, h1, h2, h3, h4⟩
    rw [h5, Cert.ReferenceIdeal.Read.val_main_v5_eq, Cert.ReferenceIdeal.RefValue.result_eq, a0, a1, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
